-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S4000000x8 : Shape := ⟨2, ![4000000, 8]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S4000000x8 : S_.BroadcastsInDim S4000000x8 (![] : Fin 0 → Fin S4000000x8.rank)
  reducesTo_S4000000x8_S_d0_1 : S4000000x8.ReducesTo [0, 1] S_

variable [Facts]

def fn_part1 {F : FTy → Type} [FloatOps F] (main_arg4 : FVec F S4000000x1 .f32) (main_v13 : IVec S_ 1) (main_v16 : IVec S4000000x8 1) : IVec S_ 1 :=
  let main_c_5 : IVec S_ 1 := constantI S_ 1 1#1
  let main_v17 : IVec S_ 1 := (fun x v => Host.reduce IntOp.andi x v reducesTo_S4000000x8_S_d0_1 h_S_) main_v16 main_c_5
  let main_v18 : IVec S_ 1 := andi main_v13 main_v17
  let main_v19 : FVec F S4000000x1 .f32 := Host.absf main_arg4
  let main_cst_6 : FVec F S_ .f32 := constant S_ .f32 0x7F800000#32
  let main_v20 : FVec F S4000000x1 .f32 := broadcastInDim S4000000x1 ![] bcast_S_S4000000x1 main_cst_6
  let main_v21 : IVec S4000000x1 1 := cmpf .olt main_v19 main_v20
  let main_c_7 : IVec S_ 1 := constantI S_ 1 1#1
  let main_v22 : IVec S_ 1 := (fun x v => Host.reduce IntOp.andi x v reducesTo_S4000000x1_S_d0_1 h_S_) main_v21 main_c_7
  let main_v23 : IVec S_ 1 := andi main_v18 main_v22
  main_v23

def fn {F : FTy → Type} [FloatOps F] (main_arg0 : FVec F S4000000x1 .f32) (main_arg1 : FVec F S4000000x8 .f32) (main_arg2 : FVec F S4000000x8 .f32) (main_arg3 : FVec F S4000000x8 .f32) (main_arg4 : FVec F S4000000x1 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x8 .f32 := Host.absf main_arg1
  let main_cst_0 : FVec F S_ .f32 := constant S_ .f32 0x7F800000#32
  let main_v5 : FVec F S4000000x8 .f32 := broadcastInDim S4000000x8 ![] bcast_S_S4000000x8 main_cst_0
  let main_v6 : IVec S4000000x8 1 := cmpf .olt main_v4 main_v5
  let main_c_1 : IVec S_ 1 := constantI S_ 1 1#1
  let main_v7 : IVec S_ 1 := (fun x v => Host.reduce IntOp.andi x v reducesTo_S4000000x8_S_d0_1 h_S_) main_v6 main_c_1
  let main_v8 : IVec S_ 1 := andi main_v3 main_v7
  let main_v9 : FVec F S4000000x8 .f32 := Host.absf main_arg2
  let main_cst_2 : FVec F S_ .f32 := constant S_ .f32 0x7F800000#32
  let main_v10 : FVec F S4000000x8 .f32 := broadcastInDim S4000000x8 ![] bcast_S_S4000000x8 main_cst_2
  let main_v11 : IVec S4000000x8 1 := cmpf .olt main_v9 main_v10
  let main_c_3 : IVec S_ 1 := constantI S_ 1 1#1
  let main_v12 : IVec S_ 1 := (fun x v => Host.reduce IntOp.andi x v reducesTo_S4000000x8_S_d0_1 h_S_) main_v11 main_c_3
  let main_v13 : IVec S_ 1 := andi main_v8 main_v12
  let main_v14 : FVec F S4000000x8 .f32 := Host.absf main_arg3
  let main_cst_4 : FVec F S_ .f32 := constant S_ .f32 0x7F800000#32
  let main_v15 : FVec F S4000000x8 .f32 := broadcastInDim S4000000x8 ![] bcast_S_S4000000x8 main_cst_4
  let main_v16 : IVec S4000000x8 1 := cmpf .olt main_v14 main_v15
  fn_part1 (F := F) main_arg4 main_v13 main_v16
-- ==== Kernel.lean ====
abbrev S4000000x1 : Shape := ⟨2, ![4000000, 1]⟩
abbrev S4000000x8 : Shape := ⟨2, ![4000000, 8]⟩
abbrev S16x128 : Shape := ⟨2, ![16, 128]⟩
abbrev S128x16 : Shape := ⟨2, ![128, 16]⟩
abbrev S250000x16 : Shape := ⟨2, ![250000, 16]⟩
abbrev S250000x128 : Shape := ⟨2, ![250000, 128]⟩
abbrev S5000x16 : Shape := ⟨2, ![5000, 16]⟩
abbrev S5000x128 : Shape := ⟨2, ![5000, 128]⟩

abbrev nBuf : Space → Nat
  | .hbm => 14
  | .vmem => 14
  | .smem => 0
  | _ => 0

abbrev bufTy : (tb : Table) → Fin (tcTables nBuf tb) → BufTy
  | .hbm, ⟨0, _⟩ => ⟨S4000000x1, .f32⟩
  | .hbm, ⟨1, _⟩ => ⟨S4000000x8, .f32⟩
  | .hbm, ⟨2, _⟩ => ⟨S4000000x8, .f32⟩
  | .hbm, ⟨3, _⟩ => ⟨S4000000x8, .f32⟩
  | .hbm, ⟨4, _⟩ => ⟨S4000000x1, .f32⟩
  | .hbm, ⟨5, _⟩ => ⟨S16x128, .f32⟩
  | .hbm, ⟨6, _⟩ => ⟨S128x16, .f32⟩
  | .hbm, ⟨7, _⟩ => ⟨S250000x16, .f32⟩
  | .hbm, ⟨8, _⟩ => ⟨S250000x128, .f32⟩
  | .hbm, ⟨9, _⟩ => ⟨S250000x128, .f32⟩
  | .hbm, ⟨10, _⟩ => ⟨S250000x128, .f32⟩
  | .hbm, ⟨11, _⟩ => ⟨S250000x16, .f32⟩
  | .hbm, ⟨12, _⟩ => ⟨S250000x16, .f32⟩
  | .hbm, ⟨13, _⟩ => ⟨S4000000x1, .f32⟩
  | .local _ .vmem, ⟨0, _⟩ => ⟨S5000x16, .f32⟩
  | .local _ .vmem, ⟨1, _⟩ => ⟨S5000x16, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x16, .f32⟩
  | .local _ .vmem, ⟨9, _⟩ => ⟨S5000x16, .f32⟩
  | .local _ .vmem, ⟨10, _⟩ => ⟨S16x128, .f32⟩
  | .local _ .vmem, ⟨11, _⟩ => ⟨S128x16, .f32⟩
  | .local _ .vmem, ⟨12, _⟩ => ⟨S5000x16, .f32⟩
  | .local _ .vmem, ⟨13, _⟩ => ⟨S5000x16, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4000000x1_S250000x16 : S4000000x1.ShapeCasts S250000x16
  shapeCasts_S4000000x8_S250000x128 : S4000000x8.ShapeCasts S250000x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S16x128_S16x128_0_0 : ∀ a, (![0, 0] : Fin 2 → Nat) a + S16x128.size a ≤ S16x128.size a
  h_S16x128 : 0 < S16x128.numel
  inb_S128x16_S128x16_0_0 : ∀ a, (![0, 0] : Fin 2 → Nat) a + S128x16.size a ≤ S128x16.size a
  h_S128x16 : 0 < S128x16.numel
  shapeCasts_S250000x16_S4000000x1 : S250000x16.ShapeCasts S4000000x1
  dot_S5000x16_S16x128_S5000x128_1_0_0_1_n_n_wf : DotDims.WF S5000x16 S16x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S250000x16.size a
  hwx0_0 : ∀ i : grid0.Coords, EltTy.bits .f32 = 32 ∨ (Rect.block (s := S250000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S250000x128.size a
  hwx0_1 : ∀ i : grid0.Coords, EltTy.bits .f32 = 32 ∨ (Rect.block (s := S250000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S250000x128.size a
  hwx0_2 : ∀ i : grid0.Coords, EltTy.bits .f32 = 32 ∨ (Rect.block (s := S250000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S250000x128.size a
  hwx0_3 : ∀ i : grid0.Coords, EltTy.bits .f32 = 32 ∨ (Rect.block (s := S250000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S250000x16.size a
  hwx0_4 : ∀ i : grid0.Coords, EltTy.bits .f32 = 32 ∨ (Rect.block (s := S250000x16) S5000x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x16.size a ≤ S250000x16.size a
  hwx0_7 : ∀ i : grid0.Coords, EltTy.bits .f32 = 32 ∨ (Rect.block (s := S250000x16) S5000x16.size (cc0_transform_7 i) (hinb0_7 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S5000x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_cst) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_0) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S5000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S4000000x8 : Shape := ⟨2, ![4000000, 8]⟩
abbrev S_ : Shape := ⟨0, ![]⟩
abbrev S4000000 : Shape := ⟨1, ![4000000]⟩

abbrev nBuf : Space → Nat
  | .hbm => 16
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S4000000x8, .f32⟩
  | .hbm, ⟨2, _⟩ => ⟨S4000000x8, .f32⟩
  | .hbm, ⟨3, _⟩ => ⟨S4000000x8, .f32⟩
  | .hbm, ⟨4, _⟩ => ⟨S4000000x1, .f32⟩
  | .hbm, ⟨5, _⟩ => ⟨S4000000x8, .f32⟩
  | .hbm, ⟨6, _⟩ => ⟨S4000000x8, .f32⟩
  | .hbm, ⟨7, _⟩ => ⟨S4000000x8, .f32⟩
  | .hbm, ⟨8, _⟩ => ⟨S_, .f32⟩
  | .hbm, ⟨9, _⟩ => ⟨S4000000x8, .f32⟩
  | .hbm, ⟨10, _⟩ => ⟨S4000000x8, .f32⟩
  | .hbm, ⟨11, _⟩ => ⟨S4000000x8, .f32⟩
  | .hbm, ⟨12, _⟩ => ⟨S_, .f32⟩
  | .hbm, ⟨13, _⟩ => ⟨S4000000, .f32⟩
  | .hbm, ⟨14, _⟩ => ⟨S4000000x1, .f32⟩
  | .hbm, ⟨15, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S4000000x1_S4000000x8_0_1 : S4000000x1.BroadcastsInDim S4000000x8 (![0, 1] : Fin 2 → Fin S4000000x8.rank)
  bcast_S_S4000000x8 : S_.BroadcastsInDim S4000000x8 (![] : Fin 0 → Fin S4000000x8.rank)
  reducesTo_S4000000x8_S4000000_d1 : S4000000x8.ReducesTo [1] S4000000
  h_S_ : 0 < S_.numel
  bcast_S4000000_S4000000x1_0 : S4000000.BroadcastsInDim S4000000x1 (![0] : Fin 1 → Fin S4000000x1.rank)

variable [Facts₀]

class Facts : Prop extends Facts₀ where

variable [Facts]
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.LibSelectSum.lean ====
/-
  Sums of products with a 0/1 selection.

  A matrix product with a "one-hot" matrix — entries 0 or 1, a single 1 in each column — selects entries, and with the
  transposed matrix adds groups of entries up.  Entry by entry these are the two facts below, stated in any type with a
  commutative addition, and a multiplication and a one for which `a * 0 = 0` and `a * 1 = a` (the two laws are
  hypotheses; no distributivity is used), so that they hold on the extended reals with no finiteness assumption
  (there the laws are `mul_zero` and `mul_one`):

  * a sum over `Fin n` of `f c * e c`, where `e` is 1 at `c0` and 0 elsewhere, is `f c0`;
  * a sum over `Fin N`, `N = A * B` taken as `A` runs of `B` (`k = a * B + b`), of `g k * r k`, where `r` is 1 on run `a0` and
    0 on every other run, is the sum of `g` over run `a0`.

  `N` is a separate variable with `hN : N = A * B`, so that the second fact applies to a literal `Fin 128` with
  `A B := 16 8` and `hN := rfl`.
-/
import Mathlib.Algebra.BigOperators.Fin
import proofs.«113651_j79001628442700_2_alg».proof.Proof.LibBlockRuns

namespace Cert.Lib.SelectSum

open Cert.Lib.BlockRuns

variable {R : Type*} [AddCommMonoid R] [Mul R] [One R]

/-- A sum of products with a family that is one at `c0` and zero elsewhere picks the entry at `c0`. -/
theorem sum_mul_select (hz : ∀ a : R, a * 0 = 0) (ho : ∀ a : R, a * 1 = a) {n : ℕ} (f e : Fin n → R) (c0 : Fin n)
    (h1 : e c0 = 1) (h0 : ∀ c, c ≠ c0 → e c = 0) :
    ∑ c, f c * e c = f c0 := by
  rw [Finset.sum_eq_single c0]
  · rw [h1, ho]
  · intro c _ hc; rw [h0 c hc, hz]
  · intro h; exact absurd (Finset.mem_univ _) h

/-- A sum over `A` runs of `B` of products with a family that is one on run `a0` and zero on the other runs is the sum
    over run `a0`. -/
theorem sum_mul_group (hz : ∀ a : R, a * 0 = 0) (ho : ∀ a : R, a * 1 = a) (A B N : ℕ) (hN : N = A * B)
    (g r : Fin N → R) (a0 : Fin A) (h1 : ∀ b, r (runIdx A B N hN a0 b) = 1)
    (h0 : ∀ a b, a ≠ a0 → r (runIdx A B N hN a b) = 0) :
    ∑ k, g k * r k = ∑ b : Fin B, g (runIdx A B N hN a0 b) := by
  refine sum_one_run A B N hN (fun k => g k * r k) (fun b => g (runIdx A B N hN a0 b)) a0 (fun b => ?_)
    (fun a b ha => ?_)
  · show g (runIdx A B N hN a0 b) * r (runIdx A B N hN a0 b) = _
    rw [h1, ho]
  · show g (runIdx A B N hN a b) * r (runIdx A B N hN a b) = 0
    rw [h0 a b ha, hz]

end Cert.Lib.SelectSum
-- ==== Proof.OneHot.lean ====
/-
  Sums against a 0/1 selection matrix, on the extended reals.

  Sixteen consecutive rows of the problem are packed into one row of 128 lanes: lane `c * 8 + h` holds hidden unit `h`
  of packed row `c`.  A product with the matrix whose entry `(c, l)` is one exactly when lane `l` belongs to packed
  row `c` copies entry `c` into its eight lanes; a product with the transposed matrix adds the eight lanes of packed
  row `c` up.  On the extended reals `a * 0 = 0`, `a * 1 = a` and `0 + a = a` for every `a`, infinite ones included, so both
  facts hold with no finiteness assumption.
-/
import Mathlib.Data.EReal.Basic
import Mathlib.Algebra.BigOperators.Fin
import proofs.«113651_j79001628442700_2_alg».proof.Proof.LibBlockRuns
import proofs.«113651_j79001628442700_2_alg».proof.Proof.LibSelectSum

namespace Cert.Mlp

open Cert.Lib.BlockRuns

/-- Lane of hidden unit `h` of packed row `c`: `c * 8 + h`. -/
abbrev lane (c : Fin 16) (h : Fin 8) : Fin 128 := runIdx 16 8 128 rfl c h

theorem lane_val (c : Fin 16) (h : Fin 8) : (lane c h).val = c.val * 8 + h.val := rfl

/-- A sum of products with a column that is one at `c0` and zero elsewhere picks the entry at `c0`. -/
theorem sum_mul_select (f e : Fin 16 → EReal) (c0 : Fin 16) (h1 : e c0 = 1) (h0 : ∀ c, c ≠ c0 → e c = 0) :
    ∑ c, f c * e c = f c0 :=
  Cert.Lib.SelectSum.sum_mul_select mul_zero mul_one f e c0 h1 h0

/-- A sum over the 128 lanes of products with a column that is one on the eight lanes of packed row `c0` and zero on
    the others is the sum over those eight lanes. -/
theorem sum_mul_group (g r : Fin 128 → EReal) (c0 : Fin 16) (h1 : ∀ h, r (lane c0 h) = 1)
    (h0 : ∀ c h, c ≠ c0 → r (lane c h) = 0) :
    ∑ l, g l * r l = ∑ h : Fin 8, g (lane c0 h) :=
  Cert.Lib.SelectSum.sum_mul_group mul_zero mul_one 16 8 128 rfl g r c0 h1 h0

end Cert.Mlp
-- ==== Proof.Spec.lean ====
/-
  The function both programs compute.

  Row `n` of the problem is a network of its own: one input `x n`, eight hidden units with weights `W1 n h` and
  biases `b1 n h`, a rectifier, output weights `W2 n h` and an output bias `b2 n`:

      y n = (Σ_h max (x n * W1 n h + b1 n h) 0 * W2 n h) + b2 n.

  `perRow` states this over the arrays as given, [4000000, 1] and [4000000, 8].  `packed` states it over arrays in
  which sixteen consecutive rows have been laid side by side — [a, 16] for `x`, `b2` and the result, [a, 128] for the
  weights, lane `c * 8 + h` of a row holding hidden unit `h` of its packed row `c` — for any number `a` of rows, so
  that it serves a block of 5000 rows and the whole array of 250000 rows alike.
-/
import Idealize.ShloMosaic.Lib.ValueIdx
import Idealize.ShloMosaic.PureOps.Ideal
import proofs.«113651_j79001628442700_2_alg».proof.Proof.OneHot

noncomputable section

namespace Cert.Mlp

open Idealize.ShloMosaic Idealize.ShloMosaic.ValueIdx

/-- One packed row `p`, packed position `q`: the network of problem row `p * 16 + q`. -/
def packedAt {a : Nat} (x b2 : FVec Ideal ⟨2, ![a, 16]⟩ .f32) (w1 b1 w2 : FVec Ideal ⟨2, ![a, 128]⟩ .f32)
    (p : Fin a) (q : Fin 16) : EReal :=
  (∑ h : Fin 8, max (x (ix2 p q) * w1 (ix2 p (lane q h)) + b1 (ix2 p (lane q h))) 0 * w2 (ix2 p (lane q h)))
    + b2 (ix2 p q)

/-- The packed result array. -/
def packed {a : Nat} (x b2 : FVec Ideal ⟨2, ![a, 16]⟩ .f32) (w1 b1 w2 : FVec Ideal ⟨2, ![a, 128]⟩ .f32) :
    FVec Ideal ⟨2, ![a, 16]⟩ .f32 :=
  fun j => packedAt x b2 w1 b1 w2 ⟨(j 0).val, (j 0).isLt⟩ ⟨(j 1).val, (j 1).isLt⟩

theorem packed_apply {a : Nat} (x b2 : FVec Ideal ⟨2, ![a, 16]⟩ .f32) (w1 b1 w2 : FVec Ideal ⟨2, ![a, 128]⟩ .f32)
    (p : Fin a) (q : Fin 16) : packed x b2 w1 b1 w2 (ix2 p q) = packedAt x b2 w1 b1 w2 p q := rfl

/-- The network of a packed position depends only on the entries of its own packed row: on `x` and `b2` at the position
    and on the weights along the row. -/
theorem packedAt_congr {a a' : Nat} (x b2 : FVec Ideal ⟨2, ![a, 16]⟩ .f32) (w1 b1 w2 : FVec Ideal ⟨2, ![a, 128]⟩ .f32)
    (x' b2' : FVec Ideal ⟨2, ![a', 16]⟩ .f32) (w1' b1' w2' : FVec Ideal ⟨2, ![a', 128]⟩ .f32)
    (p : Fin a) (p' : Fin a') (q : Fin 16)
    (hx : x (ix2 p q) = x' (ix2 p' q)) (hb2 : b2 (ix2 p q) = b2' (ix2 p' q))
    (hw1 : ∀ l : Fin 128, w1 (ix2 p l) = w1' (ix2 p' l)) (hb1 : ∀ l : Fin 128, b1 (ix2 p l) = b1' (ix2 p' l))
    (hw2 : ∀ l : Fin 128, w2 (ix2 p l) = w2' (ix2 p' l)) :
    packedAt x b2 w1 b1 w2 p q = packedAt x' b2' w1' b1' w2' p' q := by
  unfold packedAt
  rw [hx, hb2]
  simp only [hw1, hb1, hw2]

/-- Row `n` of the problem. -/
def perRowAt (x b2 : FVec Ideal ⟨2, ![4000000, 1]⟩ .f32) (w1 b1 w2 : FVec Ideal ⟨2, ![4000000, 8]⟩ .f32)
    (n : Fin 4000000) : EReal :=
  (∑ h : Fin 8, max (x (ix2 n 0) * w1 (ix2 n h) + b1 (ix2 n h)) 0 * w2 (ix2 n h)) + b2 (ix2 n 0)

/-- The result array: a column of 4000000 entries. -/
def perRow (x b2 : FVec Ideal ⟨2, ![4000000, 1]⟩ .f32) (w1 b1 w2 : FVec Ideal ⟨2, ![4000000, 8]⟩ .f32) :
    FVec Ideal ⟨2, ![4000000, 1]⟩ .f32 :=
  fun i => perRowAt x b2 w1 b1 w2 ⟨(i 0).val, (i 0).isLt⟩

end Cert.Mlp

end
-- ==== Proof.Body.lean ====
/-
  What the kernel body stores, entry by entry.

  The body reads a block of 5000 packed rows of each of the five arrays and the two constant matrices.  It multiplies
  the block of `x` by the first matrix, which copies entry `(p, c)` into the eight lanes of packed row `c`; computes
  `max (· * w1 + b1) 0 * w2` lane by lane; multiplies by the second matrix, which adds the eight lanes of each packed
  row up; and adds the block of `b2`.  Given that the two matrices are the 0/1 selections, the stored block is the
  packed form of the per-row network, with no assumption on the other entries.
-/
import proofs.«113651_j79001628442700_2_alg».proof.Proof.Gen.KernelIdeal.Skeleton
import Idealize.ShloMosaic.Lib.ValueIdx
import Idealize.ShloMosaic.Lib.Pipeline.Value
import Idealize.ShloMosaic.PureOps.Ideal.Laws
import proofs.«113651_j79001628442700_2_alg».proof.Proof.LibPlainDot
import proofs.«113651_j79001628442700_2_alg».proof.Proof.Spec

noncomputable section

namespace Cert.Mlp

open Idealize.ShloMosaic Idealize.ShloMosaic.ValueIdx Cert.KernelIdeal Cert.KernelIdeal.Gen

/-- Lane `c * 8 + h` belongs to packed row `c`. -/
theorem lane_div (c : Fin 16) (h : Fin 8) : (lane c h).val / 8 = c.val := by
  rw [lane_val]; have := h.isLt; omega

/-- The product with the first matrix copies entry `(p, l / 8)` into lane `l`. -/
theorem expand_apply (x : FVec Ideal S5000x16 .f32) (e : FVec Ideal S16x128 .f32)
    (hE : ∀ (c : Fin 16) (l : Fin 128), (e (ix2 c l) : EReal) = if l.val / 8 = c.val then 1 else 0)
    (p : Fin 5000) (l : Fin 128) :
    (matmul (F := Ideal) dot_S5000x16_S16x128_S5000x128_1_0_0_1_n_n (some .fp32) x e
        (constant S5000x128 .f32 0x00000000#32) (ix2 p l) : EReal)
      = x (ix2 p (⟨l.val / 8, by have := l.isLt; omega⟩ : Fin 16)) := by
  refine (Cert.Lib.PlainDot.matmul_zero_apply dot_S5000x16_S16x128_S5000x128_1_0_0_1_n_n rfl rfl rfl rfl rfl rfl rfl rfl
    (some .fp32) x e p l).trans ?_
  refine sum_mul_select (fun c => x (ix2 p c)) (fun c => e (ix2 c l)) ⟨l.val / 8, by have := l.isLt; omega⟩ ?_ ?_
  · show (e (ix2 _ l) : EReal) = 1
    rw [hE, if_pos rfl]
  · intro c hc
    show (e (ix2 c l) : EReal) = 0
    rw [hE, if_neg (fun h => hc (Fin.ext h.symm))]

/-- The product with the second matrix adds the eight lanes of packed row `q` up. -/
theorem collapse_apply (g : FVec Ideal S5000x128 .f32) (r : FVec Ideal S128x16 .f32)
    (hR : ∀ (l : Fin 128) (c : Fin 16), (r (ix2 l c) : EReal) = if l.val / 8 = c.val then 1 else 0)
    (p : Fin 5000) (q : Fin 16) :
    (matmul (F := Ideal) dot_S5000x128_S128x16_S5000x16_1_0_0_1_n_n (some .fp32) g r
        (constant S5000x16 .f32 0x00000000#32) (ix2 p q) : EReal)
      = ∑ h : Fin 8, (g (ix2 p (lane q h)) : EReal) := by
  refine (Cert.Lib.PlainDot.matmul_zero_apply dot_S5000x128_S128x16_S5000x16_1_0_0_1_n_n rfl rfl rfl rfl rfl rfl rfl rfl
    (some .fp32) g r p q).trans ?_
  refine sum_mul_group (fun l => g (ix2 p l)) (fun l => r (ix2 l q)) q ?_ ?_
  · intro h
    show (r (ix2 (lane q h) q) : EReal) = 1
    rw [hR, if_pos (lane_div q h)]
  · intro c h hc
    show (r (ix2 (lane c h) q) : EReal) = 0
    rw [hR, if_neg (fun e => hc (Fin.ext ((lane_div c h).symm.trans e)))]

/-- The body's stored value is this tree of operations of its loaded blocks: the same-shape casts are the identity. -/
theorem payload_eq (x0 : FVec Ideal S5000x16 .f32) (x1 x2 x3 : FVec Ideal S5000x128 .f32) (x4 : FVec Ideal S5000x16 .f32)
    (x5 : FVec Ideal S16x128 .f32) (x6 : FVec Ideal S128x16 .f32) :
    k0_pay1 (F := Ideal) x0 x1 x2 x3 x4 x5 x6
      = addf (matmul (F := Ideal) dot_S5000x128_S128x16_S5000x16_1_0_0_1_n_n (some .fp32)
          (mulf (maximumf (addf (mulf (matmul (F := Ideal) dot_S5000x16_S16x128_S5000x128_1_0_0_1_n_n (some .fp32) x0 x5
              (constant S5000x128 .f32 0x00000000#32)) x1) x2)
            (broadcast S5000x128 (Scalar.ofBits (F := Ideal) .f32 0x00000000#32))) x3) x6
          (constant S5000x16 .f32 0x00000000#32)) x4 := by
  unfold k0_pay1
  simp only [shapeCast_self]

/-- THE STORED BLOCK at `(p, q)`: the network of packed position `q` of packed row `p`. -/
theorem payload_apply (x0 : FVec Ideal S5000x16 .f32) (x1 x2 x3 : FVec Ideal S5000x128 .f32) (x4 : FVec Ideal S5000x16 .f32)
    (x5 : FVec Ideal S16x128 .f32) (x6 : FVec Ideal S128x16 .f32)
    (hE : ∀ (c : Fin 16) (l : Fin 128), (x5 (ix2 c l) : EReal) = if l.val / 8 = c.val then 1 else 0)
    (hR : ∀ (l : Fin 128) (c : Fin 16), (x6 (ix2 l c) : EReal) = if l.val / 8 = c.val then 1 else 0)
    (p : Fin 5000) (q : Fin 16) :
    k0_pay1 (F := Ideal) x0 x1 x2 x3 x4 x5 x6 (ix2 p q) = packedAt x0 x4 x1 x2 x3 p q := by
  rw [payload_eq]
  unfold packedAt
  refine congrArg (· + (x4 (ix2 p q) : EReal)) ?_
  refine (collapse_apply _ x6 hR p q).trans ?_
  refine Finset.sum_congr rfl fun h _ => ?_
  show max ((matmul (F := Ideal) dot_S5000x16_S16x128_S5000x128_1_0_0_1_n_n (some .fp32) x0 x5
        (constant S5000x128 .f32 0x00000000#32) (ix2 p (lane q h)) : EReal) * x1 (ix2 p (lane q h)) + x2 (ix2 p (lane q h)))
      (Ideal.ofBits .f32 0x00000000#32) * x3 (ix2 p (lane q h)) = _
  rw [expand_apply x0 x5 hE p (lane q h), Ideal.ofBits_zero_f32]
  have hq : (⟨(lane q h).val / 8, by have := (lane q h).isLt; omega⟩ : Fin 16) = q := Fin.ext (lane_div q h)
  rw [hq]

end Cert.Mlp

end
-- ==== Proof.Tables.lean ====
/-
  The two constant matrices of the program, entry by entry.

  The program carries two literal tables of 2048 words each.  The first, read as a [16, 128] matrix, has the word of
  `1.0` at `(c, l)` exactly when lane `l` is one of the eight lanes `c * 8 … c * 8 + 7` of packed row `c`, and the zero word
  elsewhere; the second, read as [128, 16], is its transpose.  Both facts are decided over the 2048 positions.  At the
  extended reals the two words are the numbers one and zero.
-/
import proofs.«113651_j79001628442700_2_alg».proof.KernelIdeal
import Idealize.ShloMosaic.Lib.ValueIdx
import Idealize.ShloMosaic.PureOps.Ideal.Laws

noncomputable section

namespace Cert.Mlp

open Idealize.ShloMosaic Idealize.ShloMosaic.ValueIdx Cert.KernelIdeal

/-- Position `i = c * 128 + l` of the first table holds `1.0` when `l / 8 = c` and zero otherwise. -/
theorem expandTable : ∀ i : Fin 2048,
    lit0 i = if i.val % 128 / 8 = i.val / 128 then 0x3F800000#32 else 0x00000000#32 := by
  decide +kernel

/-- Position `i = l * 16 + c` of the second table holds `1.0` when `l / 8 = c` and zero otherwise. -/
theorem reduceTable : ∀ i : Fin 2048,
    lit1 i = if i.val / 16 / 8 = i.val % 16 then 0x3F800000#32 else 0x00000000#32 := by
  decide +kernel

/-- The word of `1.0` is the number one. -/
theorem ofBits_one : Ideal.ofBits .f32 0x3F800000#32 = 1 := by
  simp [Ideal.ofBits, Ideal.ieee, -EReal.coe_mul]; norm_num

/-- The first matrix at `(c, l)`. -/
theorem expandMatrix_apply (c : Fin 16) (l : Fin 128) :
    (Ideal.ofBits .f32 (lit0 (S16x128.rowMajor (ix2 c l))) : EReal) = if l.val / 8 = c.val then 1 else 0 := by
  have hv : (S16x128.rowMajor (ix2 c l)).val = c.val * 128 + l.val := Shape.rowMajor_val_two _
  have hc := c.isLt
  have hl := l.isLt
  have ht := expandTable (S16x128.rowMajor (ix2 c l))
  rw [hv] at ht
  have h1 : (c.val * 128 + l.val) % 128 = l.val := by omega
  have h2 : (c.val * 128 + l.val) / 128 = c.val := by omega
  rw [h1, h2] at ht
  refine (congrArg (Ideal.ofBits .f32) ht).trans ?_
  by_cases h : l.val / 8 = c.val
  · rw [if_pos h, if_pos h]; exact ofBits_one
  · rw [if_neg h, if_neg h]; exact Ideal.ofBits_zero_f32

/-- The second matrix at `(l, c)`. -/
theorem reduceMatrix_apply (l : Fin 128) (c : Fin 16) :
    (Ideal.ofBits .f32 (lit1 (S128x16.rowMajor (ix2 l c))) : EReal) = if l.val / 8 = c.val then 1 else 0 := by
  have hv : (S128x16.rowMajor (ix2 l c)).val = l.val * 16 + c.val := Shape.rowMajor_val_two _
  have hc := c.isLt
  have hl := l.isLt
  have ht := reduceTable (S128x16.rowMajor (ix2 l c))
  rw [hv] at ht
  have h1 : (l.val * 16 + c.val) / 16 = l.val := by omega
  have h2 : (l.val * 16 + c.val) % 16 = c.val := by omega
  rw [h1, h2] at ht
  refine (congrArg (Ideal.ofBits .f32) ht).trans ?_
  by_cases h : l.val / 8 = c.val
  · rw [if_pos h, if_pos h]; exact ofBits_one
  · rw [if_neg h, if_neg h]; exact Ideal.ofBits_zero_f32

end Cert.Mlp

end
-- ==== Proof.Entry.lean ====
/-
  What the kernel finds in its seven operand arrays.

  Before the kernel is launched the program writes the two constant matrices and reshapes each of the five arguments,
  packing sixteen consecutive rows into one.  Each of the seven arrays the kernel's windows read is therefore a known
  function of the launch memory: a table read at its row-major position, or a reshape of an argument.
-/
import proofs.«113651_j79001628442700_2_alg».proof.Proof.Gen.KernelIdeal.Frame
import Idealize.ShloMosaic.Lib.StableHlo.Run
import Idealize.ShloMosaic.PureOps.Ideal.Laws

noncomputable section

namespace Cert.Mlp

open Idealize.ShloMosaic Idealize.ShloMosaic.TcCoe Idealize.SL.Sem Cert.KernelIdeal Cert.KernelIdeal.Gen

variable (m : (ℓ : Loc nD τ sig) → Buf (Elt Ideal) ℓ)

/-- The first constant matrix as the region finds it. -/
theorem entry_expand (c : Dev nD) :
    (V m c main_cst : S16x128.Idx → EReal) = fun i => Ideal.ofBits .f32 (lit0 (S16x128.rowMajor i)) := by
  show StableHlo.after hostOps0 (fun b => m (c, b)) (Proc.devRef .tc main_cst) = _
  after_results; rfl

/-- The second constant matrix as the region finds it. -/
theorem entry_reduce (c : Dev nD) :
    (V m c main_cst_0 : S128x16.Idx → EReal) = fun i => Ideal.ofBits .f32 (lit1 (S128x16.rowMajor i)) := by
  show StableHlo.after hostOps0 (fun b => m (c, b)) (Proc.devRef .tc main_cst_0) = _
  after_results; rfl

/-- `x`, packed. -/
theorem entry_x (c : Dev nD) :
    (V m c main_v0 : S250000x16.Idx → EReal)
      = shapeCast S250000x16 (m ((c : Thread nD τ).loc main_arg0)) shapeCasts_S4000000x1_S250000x16 := by
  show StableHlo.after hostOps0 (fun b => m (c, b)) (Proc.devRef .tc main_v0) = _
  after_results; rfl

/-- `W1`, packed. -/
theorem entry_w1 (c : Dev nD) :
    (V m c main_v1 : S250000x128.Idx → EReal)
      = shapeCast S250000x128 (m ((c : Thread nD τ).loc main_arg1)) shapeCasts_S4000000x8_S250000x128 := by
  show StableHlo.after hostOps0 (fun b => m (c, b)) (Proc.devRef .tc main_v1) = _
  after_results; rfl

/-- `b1`, packed. -/
theorem entry_b1 (c : Dev nD) :
    (V m c main_v2 : S250000x128.Idx → EReal)
      = shapeCast S250000x128 (m ((c : Thread nD τ).loc main_arg2)) shapeCasts_S4000000x8_S250000x128 := by
  show StableHlo.after hostOps0 (fun b => m (c, b)) (Proc.devRef .tc main_v2) = _
  after_results; rfl

/-- `W2`, packed. -/
theorem entry_w2 (c : Dev nD) :
    (V m c main_v3 : S250000x128.Idx → EReal)
      = shapeCast S250000x128 (m ((c : Thread nD τ).loc main_arg3)) shapeCasts_S4000000x8_S250000x128 := by
  show StableHlo.after hostOps0 (fun b => m (c, b)) (Proc.devRef .tc main_v3) = _
  after_results; rfl

/-- `b2`, packed. -/
theorem entry_b2 (c : Dev nD) :
    (V m c main_v4 : S250000x16.Idx → EReal)
      = shapeCast S250000x16 (m ((c : Thread nD τ).loc main_arg4)) shapeCasts_S4000000x1_S250000x16 := by
  show StableHlo.after hostOps0 (fun b => m (c, b)) (Proc.devRef .tc main_v4) = _
  after_results; rfl

end Cert.Mlp

end
-- ==== Proof.Blocks.lean ====
/-
  From the blocks to the packed result array.

  The grid has 50 points; at point `t` every row-blocked window holds rows `t * 5000 … t * 5000 + 4999` of its array, and
  the two constant matrices are held whole.  So the block of the result that point `t` writes back is rows
  `t * 5000 …` of ONE function of the arrays as the kernel finds them, the packed network of `Spec`; the 50 blocks tile
  the 250000 packed rows; hence after the run the result array is that function.
-/
import proofs.«113651_j79001628442700_2_alg».proof.Proof.Gen.KernelIdeal.Frame
import Idealize.ShloMosaic.Lib.Pipeline.Value
import proofs.«113651_j79001628442700_2_alg».proof.Proof.Body
import proofs.«113651_j79001628442700_2_alg».proof.Proof.Tables
import proofs.«113651_j79001628442700_2_alg».proof.Proof.Entry

set_option maxRecDepth 16384

noncomputable section

namespace Cert.Mlp

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem origin2 : (![0, 0] : Fin 2 → Nat) = fun _ => 0 := funext fun a => by fin_cases a <;> rfl

/-- The printed index maps over the 50 points: the five row-blocked inputs and the result are at block row `t`,
    block column 0; the two constant matrices are at block (0, 0). -/
theorem index_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 50 := by
  have h : cfg0.N = 50 := N_0
  have := t.isLt
  omega

/-- Packed row `t * 5000 + p`: row `p` of point `t`'s block. -/
abbrev blockRow (t : Fin cfg0.N) (p : Fin 5000) : Fin 250000 :=
  ⟨t.val * 5000 + p.val, by have := point_lt t; have := p.isLt; omega⟩

/-! ## Each block read off its array -/

theorem block_x (c : Dev nD) (t : Fin cfg0.N) (p : Fin 5000) (q : Fin 16) :
    (iblk m c 0 t (ix2 p q) : EReal) = V m c main_v0 (ix2 (blockRow t p) q) := by
  obtain ⟨-, -, e0, e1, -⟩ := index_facts t
  show V m c main_v0 (((cfg0.win 0).blk t).view.emb (ix2 p q)) = _
  refine congrArg (V m c main_v0) (funext fun a => Fin.ext ?_)
  match a with
  | ⟨0, _⟩ => show win0_0.index t (0 : Fin 2) * 5000 + 1 * p.val = t.val * 5000 + p.val; omega
  | ⟨1, _⟩ => show win0_0.index t (1 : Fin 2) * 16 + 1 * q.val = q.val; omega

theorem block_w1 (c : Dev nD) (t : Fin cfg0.N) (p : Fin 5000) (l : Fin 128) :
    (iblk m c 1 t (ix2 p l) : EReal) = V m c main_v1 (ix2 (blockRow t p) l) := by
  obtain ⟨-, -, -, -, e0, e1, -⟩ := index_facts t
  show V m c main_v1 (((cfg0.win 1).blk t).view.emb (ix2 p l)) = _
  refine congrArg (V m c main_v1) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * l.val = l.val; omega

theorem block_b1 (c : Dev nD) (t : Fin cfg0.N) (p : Fin 5000) (l : Fin 128) :
    (iblk m c 2 t (ix2 p l) : EReal) = V m c main_v2 (ix2 (blockRow t p) l) := by
  obtain ⟨-, -, -, -, -, -, e0, e1, -⟩ := index_facts t
  show V m c main_v2 (((cfg0.win 2).blk t).view.emb (ix2 p l)) = _
  refine congrArg (V m c main_v2) (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * l.val = l.val; omega

theorem block_w2 (c : Dev nD) (t : Fin cfg0.N) (p : Fin 5000) (l : Fin 128) :
    (iblk m c 3 t (ix2 p l) : EReal) = V m c main_v3 (ix2 (blockRow t p) l) := by
  obtain ⟨-, -, -, -, -, -, -, -, e0, e1, -⟩ := index_facts t
  show V m c main_v3 (((cfg0.win 3).blk t).view.emb (ix2 p l)) = _
  refine congrArg (V m c main_v3) (funext fun a => Fin.ext ?_)
  match a with
  | ⟨0, _⟩ => show win0_3.index t (0 : Fin 2) * 5000 + 1 * p.val = t.val * 5000 + p.val; omega
  | ⟨1, _⟩ => show win0_3.index t (1 : Fin 2) * 128 + 1 * l.val = l.val; omega

theorem block_b2 (c : Dev nD) (t : Fin cfg0.N) (p : Fin 5000) (q : Fin 16) :
    (iblk m c 4 t (ix2 p q) : EReal) = V m c main_v4 (ix2 (blockRow t p) q) := by
  obtain ⟨-, -, -, -, -, -, -, -, -, -, e0, e1, -⟩ := index_facts t
  show V m c main_v4 (((cfg0.win 4).blk t).view.emb (ix2 p q)) = _
  refine congrArg (V m c main_v4) (funext fun a => Fin.ext ?_)
  match a with
  | ⟨0, _⟩ => show win0_4.index t (0 : Fin 2) * 5000 + 1 * p.val = t.val * 5000 + p.val; omega
  | ⟨1, _⟩ => show win0_4.index t (1 : Fin 2) * 16 + 1 * q.val = q.val; omega

/-- The first constant matrix is held whole at every point. -/
theorem block_expand (c : Dev nD) (t : Fin cfg0.N) (k : Fin 16) (l : Fin 128) :
    Eq (α := EReal) (iblk m c 5 t (ix2 k l)) (if l.val / 8 = k.val then 1 else 0) := by
  obtain ⟨-, -, -, -, -, -, -, -, -, -, -, -, e0, e1, -⟩ := index_facts t
  have h : Eq (α := EReal) (iblk m c 5 t (ix2 k l)) (V m c main_cst (ix2 k l)) := by
    show V m c main_cst (((cfg0.win 5).blk t).view.emb (ix2 k l)) = _
    refine congrArg (V m c main_cst) (funext fun a => Fin.ext ?_)
    match a with
    | ⟨0, _⟩ => show win0_5.index t (0 : Fin 2) * 16 + 1 * k.val = k.val; omega
    | ⟨1, _⟩ => show win0_5.index t (1 : Fin 2) * 128 + 1 * l.val = l.val; omega
  rw [h, entry_expand]
  exact expandMatrix_apply k l

/-- The second constant matrix is held whole at every point. -/
theorem block_reduce (c : Dev nD) (t : Fin cfg0.N) (l : Fin 128) (k : Fin 16) :
    Eq (α := EReal) (iblk m c 6 t (ix2 l k)) (if l.val / 8 = k.val then 1 else 0) := by
  obtain ⟨-, -, -, -, -, -, -, -, -, -, -, -, -, -, e0, e1⟩ := index_facts t
  have h : Eq (α := EReal) (iblk m c 6 t (ix2 l k)) (V m c main_cst_0 (ix2 l k)) := by
    show V m c main_cst_0 (((cfg0.win 6).blk t).view.emb (ix2 l k)) = _
    refine congrArg (V m c main_cst_0) (funext fun a => Fin.ext ?_)
    match a with
    | ⟨0, _⟩ => show win0_6.index t (0 : Fin 2) * 128 + 1 * l.val = l.val; omega
    | ⟨1, _⟩ => show win0_6.index t (1 : Fin 2) * 16 + 1 * k.val = k.val; omega
  rw [h, entry_reduce]
  exact reduceMatrix_apply l k

/-- Where entry `(p, q)` of point `t`'s result block sits in the result array. -/
theorem block_out (t : Fin cfg0.N) (p : Fin 5000) (q : Fin 16) :
    ((cfg0.win 7).blk t).view.emb (ix2 p q) = ix2 (blockRow t p) q := by
  obtain ⟨e0, e1, -⟩ := index_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 16 + 1 * q.val = q.val; omega

/-! ## What a point writes back, the cover, the array -/

/-- The packed result as a function of the arrays the kernel finds. -/
abbrev packedFound (c : Dev nD) : FVec Ideal S250000x16 .f32 :=
  packed (V m c main_v0) (V m c main_v4) (V m c main_v1) (V m c main_v2) (V m c main_v3)

/-- WHAT POINT `t` WRITES BACK is block `t` of the packed network of the arrays as the region finds them. -/
theorem flushed_eq (c : Dev nD) (t : Fin cfg0.N) :
    (dats m 0 c).flushed 7 t = ((cfg0.win 7).blk t).view.read (Elt Ideal) (packedFound m c) := by
  show (cfg0.win 7).cut (grid0.coords t) ((dats m 0 c).after 7 t) = _
  rw [after0_7]
  unfold out0_7
  rw [View.canon_unit_zero origin2]
  simp only [View.ld_unit_zero (S := S5000x16) origin2, View.ld_unit_zero (S := S5000x128) origin2,
    View.ld_unit_zero (S := S16x128) origin2, View.ld_unit_zero (S := S128x16) origin2]
  funext j
  obtain ⟨p, q, rfl⟩ : ∃ (p : Fin 5000) (q : Fin 16), j = ix2 p q := ⟨j 0, j 1, eq_ix2 j⟩
  show k0_pay1 (F := Ideal) (iblk m c 0 t) (iblk m c 1 t) (iblk m c 2 t) (iblk m c 3 t) (iblk m c 4 t) (iblk m c 5 t)
      (iblk m c 6 t) (ix2 p q) = packedFound m c (((cfg0.win 7).blk t).view.emb (ix2 p q))
  rw [block_out t p q]
  refine (payload_apply (iblk m c 0 t) (iblk m c 1 t) (iblk m c 2 t) (iblk m c 3 t) (iblk m c 4 t) (iblk m c 5 t)
    (iblk m c 6 t) (block_expand m c t) (block_reduce m c t) p q).trans ?_
  exact packedAt_congr (iblk m c 0 t) (iblk m c 4 t) (iblk m c 1 t) (iblk m c 2 t) (iblk m c 3 t)
    (V m c main_v0) (V m c main_v4) (V m c main_v1) (V m c main_v2) (V m c main_v3) p (blockRow t p) q
    (block_x m c t p q) (block_b2 m c t p q) (block_w1 m c t p) (block_b1 m c t p) (block_w2 m c t p)

/-- An index of the result array is in point `t`'s block iff each coordinate is in the block's range on its axis. -/
theorem mem_block (t : Fin cfg0.N) (i : S250000x16.Idx) :
    i ∈ ((cfg0.win 7).blk t).view.set ↔ ∀ a : Fin 2, win0_7.index t a * S5000x16.size a ≤ (i a).val
      ∧ (i a).val < win0_7.index t a * S5000x16.size a + S5000x16.size a := by
  show i ∈ ((View.whole main_v5).slice (win0_7.rect t)).set ↔ _
  rw [View.set_slice_whole, Rect.mem_set_unit]
  exact Iff.rfl

/-- Packed row `r` is in the block of point `r / 5000`: the 50 blocks tile the array. -/
theorem covered (i : S250000x16.Idx) :
    ∃ t : Fin cfg0.N, (cfg0.win 7).flush t = true ∧ i ∈ ((cfg0.win 7).blk t).view.set := by
  have hi0 : (i 0).val < 250000 := (i 0).isLt
  have hi1 : (i 1).val < 16 := (i 1).isLt
  have hN : cfg0.N = 50 := N_0
  obtain ⟨t, ht⟩ : ∃ t : Fin cfg0.N, t.val = (i 0).val / 5000 := ⟨⟨(i 0).val / 5000, by omega⟩, rfl⟩
  refine ⟨t, flush0_7 t, ?_⟩
  rw [mem_block]
  obtain ⟨e0, e1, -⟩ := index_facts t
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 16 ≤ (i 1).val ∧ (i 1).val < win0_7.index t (1 : Fin 2) * 16 + 16
    omega

/-- THE RESULT ARRAY after the run: the packed network of the arrays as the region finds them. -/
theorem final (c : Dev nD) : (dats m 0 c).arrAt 7 cfg0.N = packedFound m c :=
  (dats m 0 c).arrAt_eq_of_cover 7 _ (fun t _ => flushed_eq m c t) covered

end Cert.Mlp

end
-- ==== Proof.Repack.lean ====
/-
  The three reshapes of the program read at an entry.

  A reshape keeps the row-major position of every entry.  Laying sixteen consecutive rows of a column [4000000, 1]
  side by side gives [250000, 16] with entry `(r, c)` the column's entry `r * 16 + c`; doing the same to a matrix
  [4000000, 8] gives [250000, 128] with entry `(r, l)` the matrix's entry in row `r * 16 + l / 8`, column `l % 8`; and
  reading a [250000, 16] array back as a column puts entry `(n / 16, n % 16)` at row `n`.
-/
import Idealize.ShloMosaic.Lib.ValueIdx
import Idealize.ShloMosaic.Lib.Pipeline.Value

noncomputable section

namespace Cert.Mlp

open Idealize.ShloMosaic Idealize.ShloMosaic.ValueIdx

variable {α : Type}

/-- Row `r * 16 + c` of the problem, for packed row `r` and packed position `c`. -/
abbrev rowOf (r : Fin 250000) (c : Fin 16) : Fin 4000000 := ⟨r.val * 16 + c.val, by have := r.isLt; have := c.isLt; omega⟩

/-- The column packed sixteen rows to a row, at `(r, c)`. -/
theorem packColumn_apply (x : (⟨2, ![4000000, 1]⟩ : Shape).Idx → α)
    (h : (⟨2, ![4000000, 1]⟩ : Shape).ShapeCasts ⟨2, ![250000, 16]⟩) (r : Fin 250000) (c : Fin 16) :
    shapeCast ⟨2, ![250000, 16]⟩ x h (ix2 r c) = x (ix2 (rowOf r c) 0) := by
  refine shapeCast_apply x h (ix2 r c) (ix2 (rowOf r c) 0) ?_
  rw [Shape.rowMajor_val_two, Shape.rowMajor_val_two]
  show (r.val * 16 + c.val) * 1 + 0 = r.val * 16 + c.val
  omega

/-- The matrix packed sixteen rows to a row, at `(r, l)`. -/
theorem packMatrix_apply (w : (⟨2, ![4000000, 8]⟩ : Shape).Idx → α)
    (h : (⟨2, ![4000000, 8]⟩ : Shape).ShapeCasts ⟨2, ![250000, 128]⟩) (r : Fin 250000) (l : Fin 128) :
    shapeCast ⟨2, ![250000, 128]⟩ w h (ix2 r l)
      = w (ix2 (rowOf r ⟨l.val / 8, by have := l.isLt; omega⟩) (⟨l.val % 8, Nat.mod_lt _ (by decide)⟩ : Fin 8)) := by
  refine shapeCast_apply w h (ix2 r l) _ ?_
  rw [Shape.rowMajor_val_two, Shape.rowMajor_val_two]
  show (r.val * 16 + l.val / 8) * 8 + l.val % 8 = r.val * 128 + l.val
  omega

/-- The packed array read back as a column, at row `n`. -/
theorem unpack_apply (y : (⟨2, ![250000, 16]⟩ : Shape).Idx → α)
    (h : (⟨2, ![250000, 16]⟩ : Shape).ShapeCasts ⟨2, ![4000000, 1]⟩) (n : Fin 4000000) :
    shapeCast ⟨2, ![4000000, 1]⟩ y h (ix2 n 0)
      = y (ix2 (⟨n.val / 16, by have := n.isLt; omega⟩ : Fin 250000) (⟨n.val % 16, Nat.mod_lt _ (by decide)⟩ : Fin 16)) := by
  refine shapeCast_apply y h (ix2 n 0) _ ?_
  rw [Shape.rowMajor_val_two, Shape.rowMajor_val_two]
  show n.val / 16 * 16 + n.val % 16 = n.val * 1 + 0
  omega

end Cert.Mlp

end
-- ==== Proof.Unpack.lean ====
/-
  Packing, the packed network, and unpacking give the per-row network.

  Packed row `n / 16`, packed position `n % 16` is problem row `n`, and lane `(n % 16) * 8 + h` of that packed row is
  hidden unit `h` of row `n`.  So packing the five arrays, taking the packed network and reading the result back as a
  column is the per-row network of the arrays as given.  Only the positions of entries are involved: nothing is assumed
  of the values.
-/
import proofs.«113651_j79001628442700_2_alg».proof.Proof.Spec
import proofs.«113651_j79001628442700_2_alg».proof.Proof.Repack

noncomputable section

namespace Cert.Mlp

open Idealize.ShloMosaic Idealize.ShloMosaic.ValueIdx

theorem unpack_packed (x b2 : FVec Ideal ⟨2, ![4000000, 1]⟩ .f32) (w1 b1 w2 : FVec Ideal ⟨2, ![4000000, 8]⟩ .f32)
    (hc : (⟨2, ![4000000, 1]⟩ : Shape).ShapeCasts ⟨2, ![250000, 16]⟩)
    (hm : (⟨2, ![4000000, 8]⟩ : Shape).ShapeCasts ⟨2, ![250000, 128]⟩)
    (hu : (⟨2, ![250000, 16]⟩ : Shape).ShapeCasts ⟨2, ![4000000, 1]⟩) :
    shapeCast ⟨2, ![4000000, 1]⟩
        (packed (shapeCast ⟨2, ![250000, 16]⟩ x hc) (shapeCast ⟨2, ![250000, 16]⟩ b2 hc)
          (shapeCast ⟨2, ![250000, 128]⟩ w1 hm) (shapeCast ⟨2, ![250000, 128]⟩ b1 hm)
          (shapeCast ⟨2, ![250000, 128]⟩ w2 hm)) hu
      = perRow x b2 w1 b1 w2 := by
  funext i
  obtain ⟨n, z, rfl⟩ : ∃ (n : Fin 4000000) (z : Fin 1), i = ix2 n z := ⟨i 0, i 1, eq_ix2 i⟩
  obtain rfl : z = 0 := Subsingleton.elim _ _
  have hn := n.isLt
  rw [unpack_apply, packed_apply]
  show _ = perRowAt x b2 w1 b1 w2 n
  unfold packedAt perRowAt
  rw [packColumn_apply, packColumn_apply]
  simp only [packMatrix_apply]
  have hrow : rowOf ⟨n.val / 16, by omega⟩ ⟨n.val % 16, Nat.mod_lt _ (by decide)⟩ = n :=
    Fin.ext (by show n.val / 16 * 16 + n.val % 16 = n.val; omega)
  have hrowl : ∀ h : Fin 8, rowOf ⟨n.val / 16, by omega⟩
      ⟨(lane ⟨n.val % 16, Nat.mod_lt _ (by decide)⟩ h).val / 8,
        by have := (lane ⟨n.val % 16, Nat.mod_lt _ (by decide)⟩ h).isLt; omega⟩ = n := fun h =>
    Fin.ext (by show n.val / 16 * 16 + (n.val % 16 * 8 + h.val) / 8 = n.val; have := h.isLt; omega)
  have hcol : ∀ h : Fin 8, (⟨(lane ⟨n.val % 16, Nat.mod_lt _ (by decide)⟩ h).val % 8, Nat.mod_lt _ (by decide)⟩ : Fin 8) = h :=
    fun h => Fin.ext (by show (n.val % 16 * 8 + h.val) % 8 = h.val; have := h.isLt; omega)
  simp only [hrow, hrowl, hcol]

end Cert.Mlp

end
-- ==== Proof.KernelValue.lean ====
/-
  The kernel program's run, with its result named.

  After the kernel the program reads the packed result array back as a column of 4000000 rows.  With the packed array
  known (`Blocks`) and the arrays the kernel found known (`Entry`: the packed arguments), the column is the per-row
  network of the five arguments (`Unpack`).  The run itself — every fair execution ends, nothing faults, the
  arguments are unchanged — is the generated frame run; only its statement about the result is added here.
-/
import proofs.«113651_j79001628442700_2_alg».proof.Proof.Gen.KernelIdeal.Frame
import Idealize.ShloMosaic.Lib.Pipeline.FrameSuffix
import Idealize.ShloMosaic.Lib.StableHlo.Run
import proofs.«113651_j79001628442700_2_alg».proof.Proof.Blocks
import proofs.«113651_j79001628442700_2_alg».proof.Proof.Unpack

set_option maxRecDepth 16384

noncomputable section

namespace Cert.Mlp

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The per-row network of the five arguments as launched. -/
abbrev resultOf (c : Dev nD) : FVec Ideal S4000000x1 .f32 :=
  perRow (m ((c : Thread nD τ).loc main_arg0)) (m ((c : Thread nD τ).loc main_arg4))
    (m ((c : Thread nD τ).loc main_arg1)) (m ((c : Thread nD τ).loc main_arg2)) (m ((c : Thread nD τ).loc main_arg3))

/-- The packed network of the arrays the kernel finds, read back as a column, is the per-row network of the
    arguments. -/
theorem unpacked_found (c : Dev nD) :
    shapeCast S4000000x1 (packedFound m c) shapeCasts_S250000x16_S4000000x1 = resultOf m c := by
  unfold packedFound
  rw [entry_x, entry_w1, entry_b1, entry_w2, entry_b2]
  exact unpack_packed _ _ _ _ _ _ _ _

/-- The program's result buffer after the line that follows the kernel. -/
theorem tail_result (c : Dev nD) :
    Pipeline.afterTail₀ cfgs (dats m) 0 (V0 m) [hostOps1] c main_v6 = resultOf m c := by
  unfold Pipeline.afterTail₀
  show StableHlo.after hostOps1 _ (Proc.devRef .tc main_v6) = _
  after_results
  have h7 : Pipeline.withArrays (cfgs 0).spec c (V0 m c) (fun w => (dats m 0 c).arrAt w (cfgs 0).N)
      (Proc.devRef .tc main_v5) = packedFound m c :=
    (Pipeline.withArrays_arr spec0 launch0.win.arr_inj c (V0 m c) (fun w => (dats m 0 c).arrAt w cfg0.N) 7).trans
      (final m c)
  rw [h7]
  exact unpacked_found m c

/-- THE KERNEL PROGRAM'S RUN: it ends with the result buffer at the per-row network of the arguments, and the
    arguments unchanged. -/
theorem kernel_run : θ_run defs (onTc (τ := τ) (main (F := Ideal))) ⟨m, fun _ => 0, ρ⟩ (fun r => ∀ c : Dev nD,
      r.2.mem ((c.tc : Thread nD τ).loc main_v6) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Mlp

end
-- ==== Proof.RefValue.lean ====
/-
  The reference computes the per-row network.

  The reference broadcasts the column `x` along the eight hidden units, multiplies by `W1`, adds `b1`, takes the maximum
  with zero, multiplies by `W2`, sums each row from zero, and adds `b2`.  Read at row `n` this is
  `(0 + Σ_h max (x n * W1 n h + b1 n h) 0 * W2 n h) + b2 n`, the per-row network.
-/
import proofs.«113651_j79001628442700_2_alg».proof.Proof.Gen.ReferenceIdeal.Read
import Idealize.ShloMosaic.Lib.ValueIdx
import Idealize.ShloMosaic.PureOps.Ideal.Laws
import proofs.«113651_j79001628442700_2_alg».proof.Proof.Spec

noncomputable section

namespace Cert.Mlp

open Idealize.ShloMosaic Idealize.ShloMosaic.ValueIdx Cert.ReferenceIdeal Cert.ReferenceIdeal.Read

theorem reference_eq (x0 : FVec Ideal S4000000x1 .f32) (x1 x2 x3 : FVec Ideal S4000000x8 .f32)
    (x4 : FVec Ideal S4000000x1 .f32) :
    val_main_v7 (F := Ideal) x0 x1 x2 x3 x4 = perRow x0 x4 x1 x2 x3 := by
  funext i
  obtain ⟨n, z, rfl⟩ : ∃ (n : Fin 4000000) (z : Fin 1), i = ix2 n z := ⟨i 0, i 1, eq_ix2 i⟩
  obtain rfl : z = 0 := Subsingleton.elim _ _
  have e5 : ∀ k : Fin 8, idx_main_v5 (idx_main_v6 (ix2 n (0 : Fin 1))) k = ix2 n k := fun k =>
    funext fun a => Fin.ext (by match a with | ⟨0, _⟩ => rfl | ⟨1, _⟩ => rfl)
  have e0 : ∀ k : Fin 8, idx_main_v0 (ix2 n k) = ix2 n (0 : Fin 1) := fun k =>
    funext fun a => Fin.ext (by match a with | ⟨0, _⟩ => rfl | ⟨1, _⟩ => rfl)
  rw [val_main_v7_apply, val_main_v6_apply, val_main_v5_apply]
  simp only [e5, val_main_v4_apply, val_main_v3_apply, val_main_v2_apply, val_main_v1_apply, val_main_v0_apply, e0,
    val_main_call0_v0_apply, val_main_call0_cst_apply, val_main_cst_apply, Ideal.mulf_def, Ideal.addf_def,
    Ideal.maximumf_def, Ideal.ofBits_def, Ideal.ofBits_zero_f32, zero_add]
  rfl

end Cert.Mlp

end
-- ==== Proof.lean ====
/-
  Four million independent networks, one per row: `y n = (Σ_h max (x n * W1 n h + b1 n h) 0 * W2 n h) + b2 n` with eight
  hidden units `h`.

  The reference computes this row by row.  The kernel first lays sixteen consecutive rows side by side, so that a packed
  row has 16 entries of `x`, `b2` and the result and 128 lanes of each weight array (lane `c * 8 + h` is hidden unit `h` of
  packed position `c`); it copies each `x` into its eight lanes by a product with a 0/1 matrix, works lane by lane, adds
  each group of eight lanes up by a product with the transposed 0/1 matrix, and finally reads the packed result back as
  a column.  On the extended reals a product with 0 is 0 and with 1 is the factor itself, for infinite factors too, so
  the two selections are exact and the two programs agree entry by entry for all inputs: the precondition is not used.

  The modules: `Spec` (the function, per row and packed), `OneHot` (sums against a 0/1 selection), `Tables` (the two
  constant matrices entry by entry), `Body` (what the kernel body stores), `Entry` (the arrays the kernel finds),
  `Blocks` (from the 50 blocks to the packed array), `Repack` and `Unpack` (the reshapes), `KernelValue` (the kernel
  program's run with its result named), `RefValue` (the reference is the per-row function).  No operation is rewritten
  by the idealization, so there is nothing to preserve.
-/
import proofs.«113651_j79001628442700_2_alg».proof.Defs
import proofs.«113651_j79001628442700_2_alg».proof.Proof.Gen.Kernel
import proofs.«113651_j79001628442700_2_alg».proof.Proof.Gen.Kernel.Skeleton
import proofs.«113651_j79001628442700_2_alg».proof.Proof.Gen.Kernel.Launch
import proofs.«113651_j79001628442700_2_alg».proof.Proof.Gen.Kernel.Points
import proofs.«113651_j79001628442700_2_alg».proof.Proof.Gen.Kernel.Frame
import proofs.«113651_j79001628442700_2_alg».proof.Proof.Gen.KernelIdeal
import proofs.«113651_j79001628442700_2_alg».proof.Proof.Gen.KernelIdeal.Skeleton
import proofs.«113651_j79001628442700_2_alg».proof.Proof.Gen.KernelIdeal.Launch
import proofs.«113651_j79001628442700_2_alg».proof.Proof.Gen.KernelIdeal.Points
import proofs.«113651_j79001628442700_2_alg».proof.Proof.Gen.KernelIdeal.Frame
import proofs.«113651_j79001628442700_2_alg».proof.Proof.Gen.ReferenceIdeal
import proofs.«113651_j79001628442700_2_alg».proof.Proof.Gen.Pre_finite_inputs
import proofs.«113651_j79001628442700_2_alg».proof.Proof.Gen.ReferenceIdeal.Run
import proofs.«113651_j79001628442700_2_alg».proof.Proof.Gen.ReferenceIdeal.Read
import proofs.«113651_j79001628442700_2_alg».proof.Proof.KernelValue
import proofs.«113651_j79001628442700_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does it read at the extended reals. -/
theorem frame_kernelIdeal : Cert.frame_KernelIdeal := fun m ρ _ => Cert.KernelIdeal.Gen.frame m ρ

/-- The reference runs and leaves its arguments unchanged: its run with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the per-row network of the arguments in their result: the kernel program by
    `Cert.Mlp.kernel_run`, the reference by its run read stage by stage (`Cert.Mlp.reference_eq`). -/
theorem algebraic : Cert.algebraic_KernelIdeal_ReferenceIdeal := by
  intro m ρ m' ρ' _ hagree
  refine ⟨fun c => Cert.Mlp.resultOf m c, Cert.Mlp.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Mlp.reference_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
